-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel

variable [Facts]

def fn {F : FTy → Type} [FloatOps F] (main_arg0 : FVec F S262144x512 .f32) (main_arg1 : IVec S262144 32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  main_v3
-- ==== Kernel.lean ====
abbrev S262144x512 : Shape := ⟨2, ![262144, 512]⟩
abbrev S262144 : Shape := ⟨1, ![262144]⟩
abbrev S_ : Shape := ⟨0, ![]⟩
abbrev S262144x1 : Shape := ⟨2, ![262144, 1]⟩
abbrev S1x512 : Shape := ⟨2, ![1, 512]⟩
abbrev S8192x512 : Shape := ⟨2, ![8192, 512]⟩
abbrev S512 : Shape := ⟨1, ![512]⟩

abbrev nBuf : Space → Nat
  | .hbm => 8
  | .vmem => 6
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S_, .f32⟩
  | .hbm, ⟨3, _⟩ => ⟨S262144x512, .f32⟩
  | .hbm, ⟨4, _⟩ => ⟨S262144x1, .i32⟩
  | .hbm, ⟨5, _⟩ => ⟨S262144x512, .f32⟩
  | .hbm, ⟨6, _⟩ => ⟨S1x512, .f32⟩
  | .hbm, ⟨7, _⟩ => ⟨S262144x512, .f32⟩
  | .local _ .vmem, ⟨0, _⟩ => ⟨S8192x512, .f32⟩
  | .local _ .vmem, ⟨1, _⟩ => ⟨S8192x512, .f32⟩
  | .local _ .vmem, ⟨2, _⟩ => ⟨S1x512, .f32⟩
  | .local _ .vmem, ⟨3, _⟩ => ⟨S1x512, .f32⟩
  | .local _ .vmem, ⟨4, _⟩ => ⟨S8192x512, .f32⟩
  | .local _ .vmem, ⟨5, _⟩ => ⟨S8192x512, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S262144x512 : S_.BroadcastsInDim S262144x512 (![] : Fin 0 → Fin S262144x512.rank)
  bcast_S262144_S262144x1_0 : S262144.BroadcastsInDim S262144x1 (![0] : Fin 1 → Fin S262144x1.rank)
  inb_S1x512_S1x512_0_0 : ∀ a, (![0, 0] : Fin 2 → Nat) a + S1x512.size a ≤ S1x512.size a
  h_S1x512 : 0 < S1x512.numel
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  shapeCasts_S1x512_S1x512 : S1x512.ShapeCasts S1x512
  reduces_S8192x512_S512 : S8192x512.Reduces [0] S512
  shapeCasts_S512_S1x512 : S512.ShapeCasts S1x512
  broadcasts_S1x512_S8192x512 : S1x512.Broadcasts S8192x512
  scatter_S262144x512_S262144x1_S262144x512_1_0_0_1_wf : ScatterDims.WF S262144x512 S262144x1 S262144x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S262144x512.size a
  hwx0_0 : ∀ i : grid0.Coords, EltTy.bits .f32 = 32 ∨ (Rect.block (s := S262144x512) S8192x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x512.size a ≤ S1x512.size a
  hwx1_0 : ∀ i : grid1.Coords, EltTy.bits .f32 = 32 ∨ (Rect.block (s := S1x512) S1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S262144x512.size a
  hwx1_1 : ∀ i : grid1.Coords, EltTy.bits .f32 = 32 ∨ (Rect.block (s := S262144x512) S8192x512.size (cc1_transform_1 i) (hinb1_1 i)).WholeWords (EltTy.packing .f32)

variable [Facts₀]

def scatter_S262144x512_S262144x1_S262144x512_1_0_0_1 : ScatterDims S262144x512 S262144x1 S262144x512 where
  updateWindowDims := [1]
  insertedWindowDims := [0]
  scatterDimsToOperandDims := [0]
  indexVectorDim := 1
  wf := scatter_S262144x512_S262144x1_S262144x512_1_0_0_1_wf

abbrev win0_0 : Pipeline.Window sig grid0 :=
  Pipeline.Window.ofSpec (Memref.whole main_v2) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S1x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8192x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S262144x512 : Shape := ⟨2, ![262144, 512]⟩
abbrev S262144 : Shape := ⟨1, ![262144]⟩
abbrev S_ : Shape := ⟨0, ![]⟩
abbrev S262144x1 : Shape := ⟨2, ![262144, 1]⟩
abbrev S512 : Shape := ⟨1, ![512]⟩

abbrev nBuf : Space → Nat
  | .hbm => 10
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S_, .f32⟩
  | .hbm, ⟨3, _⟩ => ⟨S262144x512, .f32⟩
  | .hbm, ⟨4, _⟩ => ⟨S262144x1, .i32⟩
  | .hbm, ⟨5, _⟩ => ⟨S262144x512, .f32⟩
  | .hbm, ⟨6, _⟩ => ⟨S262144x512, .f32⟩
  | .hbm, ⟨7, _⟩ => ⟨S_, .f32⟩
  | .hbm, ⟨8, _⟩ => ⟨S512, .f32⟩
  | .hbm, ⟨9, _⟩ => ⟨S262144x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S262144x512 : S_.BroadcastsInDim S262144x512 (![] : Fin 0 → Fin S262144x512.rank)
  bcast_S262144_S262144x1_0 : S262144.BroadcastsInDim S262144x1 (![0] : Fin 1 → Fin S262144x1.rank)
  reducesTo_S262144x512_S512_d0 : S262144x512.ReducesTo [0] S512
  h_S_ : 0 < S_.numel
  bcast_S512_S262144x512_1 : S512.BroadcastsInDim S262144x512 (![1] : Fin 1 → Fin S262144x512.rank)
  scatter_S262144x512_S262144x1_S262144x512_1_0_0_1_wf : ScatterDims.WF S262144x512 S262144x1 S262144x512 [1] [0] [0] 1

variable [Facts₀]

def scatter_S262144x512_S262144x1_S262144x512_1_0_0_1 : ScatterDims S262144x512 S262144x1 S262144x512 where
  updateWindowDims := [1]
  insertedWindowDims := [0]
  scatterDimsToOperandDims := [0]
  indexVectorDim := 1
  wf := scatter_S262144x512_S262144x1_S262144x512_1_0_0_1_wf

class Facts : Prop extends Facts₀ where

variable [Facts]
-- ==== Proof.KernelPieces.lean ====
/-
  What one grid point of each of the two kernels leaves behind, read as values.

  The first kernel keeps a running row of 512 column totals. At its first grid point it stores a row of zeros, reads
  it back and adds the point's contribution; at every later point it adds the contribution to what the point before
  left. The contribution of a point is, column by column, the sum over the 8192 rows of the point's input block of the
  entry squared. The second kernel copies its one input row into every row of its output block.

  The first two lemmas say which value each case of the first kernel leaves in its output buffer, for any float
  instance. The remaining ones read the three stored values at an index over the extended reals.
-/
import proofs.«164212_j35287451304683_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- A later grid point: the output buffer held `xo`; the one store that covers it writes the sum of `xo` and the
    point's contribution from the input block `x`. -/
theorem later_point (c : Dev nD) (i : grid0.Coords) (a1 : Memref sig .tc .vmem S8192x512 .f32) (h1 : a1.IsWhole)
    (a2 : Memref sig .tc .vmem S1x512 .f32) (h2 : a2.IsWhole) (hc : ¬cond0_0 i) (x : Vec F S8192x512 .f32)
    (xo : Vec F S1x512 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero zero_offsets]
  simp only [View.readAt_eq_ld, h1.read_unread, h2.read_unread, View.ld_unit_zero (S := S8192x512) zero_offsets,
    View.ld_unit_zero (S := S1x512) zero_offsets]

/-- The first grid point: the row of zeros is stored, read back, and the point's contribution added to it. -/
theorem first_point (c : Dev nD) (i : grid0.Coords) (a1 : Memref sig .tc .vmem S8192x512 .f32) (h1 : a1.IsWhole)
    (a2 : Memref sig .tc .vmem S1x512 .f32) (h2 : a2.IsWhole) (hc : cond0_0 i) (x : Vec F S8192x512 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x512) zero_offsets, View.readCov_unit_zero (S := S1x512) _ zero_offsets]
  simp only [View.readAt_eq_ld, h1.read_unread, View.ld_unit_zero (S := S8192x512) zero_offsets]

/-- The stored row of zeros is the extended real zero at every column. -/
theorem zeros_apply (u : Fin 1) (d : Fin 512) : k0_pay1 (F := Ideal) (ix2 u d) = 0 :=
  Ideal.ofBits_zero_f32

/-- Over the extended reals the value a point stores is, at column `d`, what the buffer held there plus the sum
    over the block's 8192 rows of the entry squared. -/
theorem accumulate_apply (x : FVec Ideal S8192x512 .f32) (xo : FVec Ideal S1x512 .f32) (u : Fin 1) (d : Fin 512) :
    k0_pay2 x xo (ix2 u d) = xo (ix2 u d) + ∑ r : Fin 8192, x (ix2 r d) * x (ix2 r d) := by
  unfold k0_pay2
  refine (addf_apply _ _ _).trans ?_
  refine congrArg₂ (· + ·) (congrFun (shapeCast_self xo _) _) ?_
  refine (shapeCast_a_1a_apply _ _ u d).trans ?_
  refine (Ideal.multiReduction_add_single _ _ reduces_S8192x512_S512 _ _ (ix1 d)).trans ?_
  refine Finset.sum_congr rfl fun r _ => ?_
  rw [shapeCast_self]
  have e : reduces_S8192x512_S512.lift (ix1 d) r = ix2 r d := by
    funext a
    match a with
    | ⟨0, _⟩ => rfl
    | ⟨1, _⟩ => rfl
  rw [e]
  rfl

/-- The second kernel's stored block holds, at row `p` and column `d`, its input row's entry at column `d`. -/
theorem copy_row_apply (v : Vec F S1x512 .f32) (p : Fin 8192) (d : Fin 512) :
    k1_pay1 v (ix2 p d) = v (ix2 (0 : Fin 1) d) := by
  unfold k1_pay1
  rw [shapeCast_self, shapeCast_self]
  exact broadcastTo_1b_ab_apply v _ p d

end Cert.KernelIdeal.Pieces

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.ColumnSquares.lean ====
/-
  The sum of squares down a column, whole and in row blocks.

  For an array `x` of 262144 rows and 512 columns of extended reals, `colSq x d` is the sum over every row `n`
  of `x n d * x n d`. Cut the rows into 32 consecutive blocks of 8192: `blockSq x s d` is the same sum over the
  rows `s * 8192, …, s * 8192 + 8191` of block `s` only. The 32 block sums add up to the whole column sum, because
  addition of extended reals is commutative and associative: nothing is cancelled or distributed, so no entry needs
  to be finite.
-/
import Idealize.ShloMosaic.Lib.ValueIdx
import proofs.«164212_j35287451304683_1_alg».proof.Proof.LibBlockedSum

noncomputable section

open scoped BigOperators

namespace Cert.ColumnSquares

open Idealize.ShloMosaic Idealize.ShloMosaic.ValueIdx

/-- Row `r` of block `s` as a row of the whole array. For `s < 32` this is row `s * 8192 + r`; the remainder
    only makes the definition total in `s`. -/
def rowAt (s : ℕ) (r : Fin 8192) : Fin 262144 := ⟨(s * 8192 + r.val) % 262144, Nat.mod_lt _ (by decide)⟩

theorem rowAt_val (s : ℕ) (hs : s < 32) (r : Fin 8192) : (rowAt s r).val = s * 8192 + r.val := by
  have hr : r.val < 8192 := r.isLt
  show (s * 8192 + r.val) % 262144 = s * 8192 + r.val
  exact Nat.mod_eq_of_lt (by omega)

/-- Column `d`'s sum of squares over the rows of block `s`. -/
def blockSq (x : (⟨2, ![262144, 512]⟩ : Shape).Idx → EReal) (s : ℕ) (d : Fin 512) : EReal :=
  ∑ r : Fin 8192, x (ix2 (rowAt s r) d) * x (ix2 (rowAt s r) d)

/-- Column `d`'s sum of squares over every row. -/
def colSq (x : (⟨2, ![262144, 512]⟩ : Shape).Idx → EReal) (d : Fin 512) : EReal :=
  ∑ n : Fin 262144, x (ix2 n d) * x (ix2 n d)

/-- The 32 block sums of a column add up to the column's whole sum. -/
theorem sum_blockSq (x : (⟨2, ![262144, 512]⟩ : Shape).Idx → EReal) (d : Fin 512) :
    ∑ s ∈ Finset.range 32, blockSq x s d = colSq x d := by
  unfold blockSq colSq
  refine BlockedSum.sum_range_blocks 32 8192 (fun n : Fin (32 * 8192) => x (ix2 n d) * x (ix2 n d))
    (fun s r => x (ix2 (rowAt s r) d) * x (ix2 (rowAt s r) d)) fun s r => ?_
  have e : rowAt s.val r = BlockedSum.blockIndex s r := Fin.ext (rowAt_val s.val s.isLt r)
  rw [e]

end Cert.ColumnSquares

end
-- ==== Proof.SumRegion.lean ====
/-
  The first kernel as a whole: the column totals of the squares.

  Its input has 262144 rows and 512 columns and is read in 32 blocks of 8192 rows, block `t` at grid point `t`. Its
  output is one row of 512 entries that stays in place across the grid and is written back once, after the last
  point. After point `n` the row holds, at column `d`, the sum over the blocks `0, …, n` of the block's own sum of
  squares down column `d` — by induction on the point: the first point starts from zero, every later one adds its
  block's sum to what the point before left. After the last point that is the sum over all 32 blocks, which is the sum of
  squares down the whole column (the blocks' sums add up to it whatever the entries are).
-/
import proofs.«164212_j35287451304683_1_alg».proof.Proof.KernelPieces
import proofs.«164212_j35287451304683_1_alg».proof.Proof.ColumnSquares

noncomputable section

open scoped BigOperators
open Idealize.ShloMosaic Idealize.ShloMosaic.TcCoe Idealize.SL.Sem Idealize.ShloMosaic.ValueIdx
open Idealize.ShloMosaic.Pipeline (Dat)

namespace Cert.KernelIdeal.SumRegion

open Cert.KernelIdeal Cert.KernelIdeal.Gen Cert.KernelIdeal.Pieces Cert.ColumnSquares

variable (V : (c : Dev nD) → (b : Ref sig .tc) → Buf (Elt Ideal) ((c : Thread nD τ).loc b))

/-- Where the blocks sit: the input's block at point `t` is block `t` down the rows, block 0 across the columns;
    the output's one block is always block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Row `r`, column `d` of the input block at point `t` is the input's entry at row `t * 8192 + r`, column `d`. -/
theorem block_entry (c : Dev nD) (t : Fin cfg0.N) (r : Fin 8192) (d : Fin 512) :
    (iblk0 V c 0 t : Vec Ideal S8192x512 .f32) (ix2 r d) = (V c main_v2 : S262144x512.Idx → EReal) (ix2 (rowAt t.val r) d) := by
  have hN : cfg0.N = 32 := N_0
  have ht : t.val < 32 := by have := t.isLt; omega
  obtain ⟨e0, e1, e2, e3⟩ := block_indices t
  show V c main_v2 (((cfg0.win 0).blk t).view.emb (ix2 r d)) = V c main_v2 _
  refine congrArg (V c main_v2) ?_
  funext a
  apply Fin.ext
  match a with
  | ⟨0, _⟩ =>
    show win0_0.index t (0 : Fin 2) * 8192 + 1 * r.val = (rowAt t.val r).val
    rw [rowAt_val t.val ht r, e0]; omega
  | ⟨1, _⟩ =>
    show win0_0.index t (1 : Fin 2) * 512 + 1 * d.val = d.val
    rw [e1]; omega

/-- The sum of squares down column `d` of the input block at point `t` is the input's block sum. -/
theorem block_contribution (c : Dev nD) (t : Fin cfg0.N) (d : Fin 512) (x : FVec Ideal S8192x512 .f32)
    (hx : x = iblk0 V c 0 t) :
    ∑ r : Fin 8192, x (ix2 r d) * x (ix2 r d) = blockSq (V c main_v2) t.val d := by
  subst hx
  unfold blockSq
  exact Finset.sum_congr rfl fun r _ => congrArg₂ (· * ·) (block_entry V c t r d) (block_entry V c t r d)

/-- After point `n` the output row holds, at column `d`, the sum of the block sums of blocks `0, …, n`. -/
theorem running_total (c : Dev nD) : ∀ (n : ℕ) (hn : n < cfg0.N) (u : Fin 1) (d : Fin 512),
    outsAt0 V c n hn (ix2 u d) = ∑ s ∈ Finset.range (n + 1), blockSq (V c main_v2) s d
  | 0, hn, u, d => by
    rw [outsAt0_A V c ⟨0, hn⟩ rfl]
    refine (congrFun (first_point c _ _ _ _ _ _ (iblk0 V c 0 ⟨0, hn⟩)) _).trans ?_
    refine (accumulate_apply (iblk0 V c 0 ⟨0, hn⟩) _ u d).trans ?_
    rw [zeros_apply, zero_add, Finset.sum_range_one]
    exact block_contribution V c ⟨0, hn⟩ d _ rfl
  | n + 1, hn, u, d => by
    have hN : cfg0.N = 32 := N_0
    have hB : ¬(⟨n + 1, hn⟩ : Fin cfg0.N).val % 32 = 0 := by dsimp only; omega
    rw [outsAt0_B V c ⟨n + 1, hn⟩ hB]
    refine (congrFun (later_point c _ _ _ _ _ _ (iblk0 V c 0 ⟨n + 1, hn⟩) _) _).trans ?_
    refine (accumulate_apply (iblk0 V c 0 ⟨n + 1, hn⟩) _ u d).trans ?_
    rw [Finset.sum_range_succ _ (n + 1)]
    refine congrArg₂ (· + ·) ?_ (block_contribution V c ⟨n + 1, hn⟩ d _ rfl)
    exact running_total c n (Nat.lt_of_succ_lt hn) u d

/-- The row of column totals: at column `d`, the sum over every row of the input's entry squared. -/
def columnTotals (x : S262144x512.Idx → EReal) : S1x512.Idx → EReal :=
  fun y => colSq x (⟨(y 1).val, idx2_lt1 y⟩ : Fin 512)

theorem columnTotals_apply (x : S262144x512.Idx → EReal) (u : Fin 1) (d : Fin 512) :
    columnTotals x (ix2 u d) = colSq x d := rfl

/-- The one write-back, after the last point, writes the row of column totals — stated for any row `G` that has the
    column total at each column. -/
theorem written_back (c : Dev nD) (G : S1x512.Idx → EReal)
    (hG : ∀ (u : Fin 1) (d : Fin 512), G (ix2 u d) = colSq (V c main_v2) d)
    (t : Fin cfg0.N) (hf : (cfg0.win 1).flush t = true) :
    (dat0 V c).flushed 1 t = ((cfg0.win 1).blk t).view.read (Elt Ideal) G := by
  have hN : cfg0.N = 32 := N_0
  have h31 : t.val = 31 := by have := (flush0_1 t).mp hf; have := t.isLt; omega
  obtain ⟨e0, e1, e2, e3⟩ := block_indices t
  show (cfg0.win 1).cut (grid0.coords t) ((dat0 V c).after 1 t) = _
  rw [after0_1]
  funext j
  have h0 : (j 0).val < 1 := (j 0).isLt
  have h1 : (j 1).val < 512 := (j 1).isLt
  have hj : ((cfg0.win 1).xinj (grid0.coords t) j : S1x512.Idx) = ix2 (⟨(j 0).val, h0⟩ : Fin 1) (⟨(j 1).val, h1⟩ : Fin 512) := by
    funext a
    match a with
    | ⟨0, _⟩ => rfl
    | ⟨1, _⟩ => rfl
  have he : (((cfg0.win 1).blk t).view.emb j : S1x512.Idx) = ix2 (⟨(j 0).val, h0⟩ : Fin 1) (⟨(j 1).val, h1⟩ : Fin 512) := by
    funext a
    apply Fin.ext
    match a with
    | ⟨0, _⟩ => show win0_1.index t (0 : Fin 2) * 1 + 1 * (j 0).val = (j 0).val; rw [e2]; omega
    | ⟨1, _⟩ => show win0_1.index t (1 : Fin 2) * 512 + 1 * (j 1).val = (j 1).val; rw [e3]; omega
  show outsAt0 V c t.val t.isLt ((cfg0.win 1).xinj (grid0.coords t) j) = G (((cfg0.win 1).blk t).view.emb j)
  rw [he, hG]
  refine (congrArg (outsAt0 V c t.val t.isLt) hj).trans ?_
  refine (running_total V c t.val t.isLt _ _).trans ?_
  rw [h31]
  exact sum_blockSq (V c main_v2) _

/-- An entry of the output row lies in point `t`'s block iff each coordinate is in the block's range on its axis. -/
theorem mem_block (t : Fin cfg0.N) (i : S1x512.Idx) :
    i ∈ ((cfg0.win 1).blk t).view.set ↔ ∀ a : Fin 2, win0_1.index t a * S1x512.size a ≤ (i a).val ∧ (i a).val < win0_1.index t a * S1x512.size a + S1x512.size a := by
  show i ∈ ((View.whole main_v3).slice (win0_1.rect t)).set ↔ _
  rw [View.set_slice_whole, Rect.mem_set_unit]
  exact Iff.rfl

/-- So the output row ends holding the column totals of the squares of the input as the kernel found it. -/
theorem final (c : Dev nD) : (dat0 V c).arrAt 1 cfg0.N = columnTotals (V c main_v2) :=
  (dat0 V c).arrAt_eq_of_cover 1 (columnTotals (V c main_v2))
    (written_back V c _ fun u d => columnTotals_apply (V c main_v2) u d) fun i => by
    have hN : cfg0.N = 32 := N_0
    have hi0 : (i 0).val < 1 := (i 0).isLt
    have hi1 : (i 1).val < 512 := (i 1).isLt
    refine ⟨⟨31, by omega⟩, (flush0_1 _).mpr rfl, ?_⟩
    rw [mem_block]
    obtain ⟨e0, e1, e2, e3⟩ := block_indices ⟨31, by omega⟩
    intro a
    match a with
    | ⟨0, _⟩ =>
      show win0_1.index ⟨31, _⟩ (0 : Fin 2) * 1 ≤ (i 0).val ∧ (i 0).val < win0_1.index ⟨31, _⟩ (0 : Fin 2) * 1 + 1
      rw [e2]; omega
    | ⟨1, _⟩ =>
      show win0_1.index ⟨31, _⟩ (1 : Fin 2) * 512 ≤ (i 1).val ∧ (i 1).val < win0_1.index ⟨31, _⟩ (1 : Fin 2) * 512 + 512
      rw [e3]; omega

end Cert.KernelIdeal.SumRegion

end
-- ==== Proof.CopyRegion.lean ====
/-
  The second kernel as a whole: a row copied into every row.

  Its input is one row of 512 entries; its output has 262144 rows, written back in 32 blocks of 8192 rows, block
  `t` at grid point `t`. Every point stores its input row in each of its block's rows, so whatever the row held
  when the kernel was entered, the output ends holding that row in every row: entry `(n, d)` is the row's entry `d`.
  The blocks tile the output: row `n` lies in block `n / 8192`.
-/
import proofs.«164212_j35287451304683_1_alg».proof.Proof.KernelPieces

noncomputable section

open Idealize.ShloMosaic Idealize.ShloMosaic.TcCoe Idealize.SL.Sem Idealize.ShloMosaic.ValueIdx
open Idealize.ShloMosaic.Pipeline (Dat)

namespace Cert.KernelIdeal.CopyRegion

open Cert.KernelIdeal Cert.KernelIdeal.Gen Cert.KernelIdeal.Pieces

variable {F : FTy → Type} [FloatOps F]
variable (V : (c : Dev nD) → (b : Ref sig .tc) → Buf (Elt F) ((c : Thread nD τ).loc b))

/-- The array whose every row is the row `v`. -/
def rowEverywhere (v : S1x512.Idx → Elt F .f32) : S262144x512.Idx → Elt F .f32 :=
  fun i => v (ix2 (0 : Fin 1) (⟨(i 1).val, idx2_lt1 i⟩ : Fin 512))

/-- Where the blocks sit: the input's one block is always block (0, 0); the output's block at point `t` is block
    `t` down the rows, block 0 across the columns. -/
theorem block_indices : ∀ t : Fin cfg1.N, win1_0.index t (0 : Fin 2) = 0 ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the array whose every row is the input row. -/
theorem written_back (c : Dev nD) (t : Fin cfg1.N) :
    (dat1 V c).flushed 1 t = ((cfg1.win 1).blk t).view.read (Elt F) (rowEverywhere (V c main_v3)) := by
  show (cfg1.win 1).cut (grid1.coords t) ((dat1 V c).after 1 t) = _
  rw [after1_1]
  unfold out1_1
  rw [View.canon_unit_zero zero_offsets]
  simp only [View.ld_unit_zero (S := S1x512) zero_offsets]
  obtain ⟨e0, e1, e2, e3⟩ := block_indices t
  funext j
  have h0 : (j 0).val < 8192 := (j 0).isLt
  have h1 : (j 1).val < 512 := (j 1).isLt
  have hj : ((cfg1.win 1).xinj (grid1.coords t) j : S8192x512.Idx) = ix2 (⟨(j 0).val, h0⟩ : Fin 8192) (⟨(j 1).val, h1⟩ : Fin 512) := by
    funext a
    match a with
    | ⟨0, _⟩ => rfl
    | ⟨1, _⟩ => rfl
  show k1_pay1 (iblk1 V c 0 t) ((cfg1.win 1).xinj (grid1.coords t) j) = rowEverywhere (V c main_v3) (((cfg1.win 1).blk t).view.emb j)
  refine (congrArg (k1_pay1 (iblk1 V c 0 t)) hj).trans ?_
  refine (copy_row_apply (iblk1 V c 0 t) _ _).trans ?_
  show V c main_v3 (((cfg1.win 0).blk t).view.emb (ix2 (0 : Fin 1) (⟨(j 1).val, h1⟩ : Fin 512))) = V c main_v3 _
  refine congrArg (V c main_v3) ?_
  funext a
  apply Fin.ext
  match a with
  | ⟨0, _⟩ => show win1_0.index t (0 : Fin 2) * 1 + 1 * 0 = 0; omega
  | ⟨1, _⟩ => show win1_0.index t (1 : Fin 2) * 512 + 1 * (j 1).val = win1_1.index t (1 : Fin 2) * 512 + 1 * (j 1).val; omega

/-- An entry of the output lies in point `t`'s block iff each coordinate is in the block's range on its axis. -/
theorem mem_block (t : Fin cfg1.N) (i : S262144x512.Idx) :
    i ∈ ((cfg1.win 1).blk t).view.set ↔ ∀ a : Fin 2, win1_1.index t a * S8192x512.size a ≤ (i a).val ∧ (i a).val < win1_1.index t a * S8192x512.size a + S8192x512.size a := by
  show i ∈ ((View.whole main_v4).slice (win1_1.rect t)).set ↔ _
  rw [View.set_slice_whole, Rect.mem_set_unit]
  exact Iff.rfl

/-- So the output ends holding the input row, as the kernel found it, in every row. -/
theorem final (c : Dev nD) : (dat1 V c).arrAt 1 cfg1.N = rowEverywhere (V c main_v3) :=
  (dat1 V c).arrAt_eq_of_cover 1 (rowEverywhere (V c main_v3)) (fun t _ => written_back V c t) fun i => by
    have hN : cfg1.N = 32 := N_1
    have hi0 : (i 0).val < 262144 := (i 0).isLt
    have hi1 : (i 1).val < 512 := (i 1).isLt
    refine ⟨⟨(i 0).val / 8192, by omega⟩, flush1_1 _, ?_⟩
    rw [mem_block]
    obtain ⟨e0, e1, e2, e3⟩ := block_indices ⟨(i 0).val / 8192, by omega⟩
    intro a
    match a with
    | ⟨0, _⟩ =>
      show win1_1.index ⟨(i 0).val / 8192, _⟩ (0 : Fin 2) * 8192 ≤ (i 0).val ∧ (i 0).val < win1_1.index ⟨(i 0).val / 8192, _⟩ (0 : Fin 2) * 8192 + 8192
      rw [e2]; dsimp only; omega
    | ⟨1, _⟩ =>
      show win1_1.index ⟨(i 0).val / 8192, _⟩ (1 : Fin 2) * 512 ≤ (i 1).val ∧ (i 1).val < win1_1.index ⟨(i 0).val / 8192, _⟩ (1 : Fin 2) * 512 + 512
      rw [e3]; omega

end Cert.KernelIdeal.CopyRegion

end
-- ==== Proof.KernelValue.lean ====
/-
  The kernel program's result as one function of its arguments.

  The program forms the per-segment sums on the host by one scatter-add, then runs the two kernels one after the
  other. The first finds the segment sums in its input and leaves the row of their column totals of squares; the
  second finds that row in its input and leaves it in every row of the result. So the result at row `n`, column `d`
  is the sum over every row of the segment sum at column `d` squared.
-/
import proofs.«164212_j35287451304683_1_alg».proof.Proof.SumRegion
import proofs.«164212_j35287451304683_1_alg».proof.Proof.CopyRegion
import proofs.«164212_j35287451304683_1_alg».proof.Proof.ResultRun
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.ColumnSquares

variable (m : (ℓ : Loc nD τ sig) → Buf (Elt Ideal) ℓ) (ρ : Dev nD → PrngReg)

/-- The per-segment sums: the host's scatter-add of the rows of the first argument into a zero array at the rows the
    second argument names. -/
def segmentSums (c : Dev nD) : S262144x512.Idx → EReal :=
  Host.scatterAdd scatter_S262144x512_S262144x1_S262144x512_1_0_0_1
    (broadcastInDim S262144x512 ![] bcast_S_S262144x512 (constant (F := Ideal) S_ .f32 0x00000000#32))
    (broadcastInDim S262144x1 ![0] bcast_S262144_S262144x1_0 (m ((c.tc : Thread nD τ).loc main_arg1)))
    (m ((c.tc : Thread nD τ).loc main_arg0))

/-- The result: the column totals of the squared segment sums, in every row. -/
def result (c : Dev nD) : S262144x512.Idx → EReal :=
  CopyRegion.rowEverywhere (F := Ideal) (SumRegion.columnTotals (segmentSums m c))

/-- When the first kernel is entered its input holds the segment sums. -/
theorem first_input (c : Dev nD) : (V1 m ρ c main_v2 : S262144x512.Idx → EReal) = segmentSums m c := by
  unfold segmentSums
  show StableHlo.after hostOps0 (W0 m ρ c) (Proc.devRef .tc main_v2) = _
  after_results <;> rfl

/-- After the run the result array holds `result`. -/
theorem result_eq (c : Dev nD) : (W3 m ρ c (Proc.devRef .tc main_v4) : S262144x512.Idx → EReal) = result m c := by
  have h1 : W3 m ρ c (Proc.devRef .tc main_v4) = (dat1 (V2 m ρ) c).arrAt 1 cfg1.N := W3_arr m ρ c 1
  have h2 : V2 m ρ c main_v3 = (dat0 (V1 m ρ) c).arrAt 1 cfg0.N := W2_arr m ρ c 1
  unfold result
  rw [h1, CopyRegion.final (V2 m ρ) c, h2, SumRegion.final (V1 m ρ) c, first_input m ρ c]

/-- The run, read: the result array at `result`, the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩)
    (Cert.KernelIdeal.GenP.run_main (F := Ideal) m ρ)

end Cert.KernelIdeal.Whole

end
-- ==== Proof.RefSide.lean ====
/-
  The reference read at an index.

  The reference forms the per-segment sums by one scatter-add, squares them entry by entry, sums the squares over the
  262144 rows starting from zero, and repeats the resulting row of 512 totals in every row. So its result at row `n`,
  column `d` is the sum over every row of the segment sum at column `d` squared: zero plus that sum is the sum.
-/
import proofs.«164212_j35287451304683_1_alg».proof.Proof.Gen.ReferenceIdeal.Read
import proofs.«164212_j35287451304683_1_alg».proof.Proof.ColumnSquares
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.ColumnSquares

/-- The reference's result at `(n, d)` is the sum of squares down column `d` of the segment sums. -/
theorem result_apply (x0 : (⟨S262144x512, .f32⟩ : BufTy).Contents (Elt Ideal)) (x1 : (⟨S262144, .i32⟩ : BufTy).Contents (Elt Ideal))
    (i : S262144x512.Idx) :
    val_main_v5 (F := Ideal) x0 x1 i
      = colSq (val_main_v2 (F := Ideal) x0 x1 : S262144x512.Idx → EReal) (⟨(i 1).val, idx2_lt1 i⟩ : Fin 512) := by
  rw [val_main_v5_apply, val_main_v4_apply, val_main_cst_0_apply]
  refine (congrArg (· + _) Ideal.ofBits_zero_f32).trans ?_
  rw [zero_add]
  unfold colSq
  refine Finset.sum_congr rfl fun k _ => ?_
  rw [val_main_v3_apply]
  have e : idx_main_v4 (idx_main_v5 i) k = ix2 k (⟨(i 1).val, idx2_lt1 i⟩ : Fin 512) := by
    funext a
    match a with
    | ⟨0, _⟩ => rfl
    | ⟨1, _⟩ => rfl
  rw [e]
  rfl

end Cert.ReferenceIdeal.RefValue

end
-- ==== Proof.Bridge.lean ====
/-
  The two programs compute one function.

  Both form the per-segment sums by the same scatter-add of the same arguments. The reference's result at row `n`,
  column `d` is the sum over every row of the segment sum at column `d` squared; so is the kernel program's. Nothing
  here depends on the entries being finite: the only law used between the two sides is that a sum may be taken block
  by block, and that was used inside the first kernel's region.
-/
import proofs.«164212_j35287451304683_1_alg».proof.Proof.KernelValue
import proofs.«164212_j35287451304683_1_alg».proof.Proof.RefSide

noncomputable section

open Idealize.ShloMosaic Idealize.ShloMosaic.TcCoe Idealize.SL.Sem Idealize.ShloMosaic.ValueIdx

namespace Cert.Bridge

open Cert.ColumnSquares

/-- The reference's segment sums of the kernel program's arguments are the kernel program's segment sums: the same
    scatter-add, with the same dimension numbers, of the same zero array, index column and update rows. -/
theorem same_segment_sums
    (m : (ℓ : Loc Cert.KernelIdeal.nD Cert.KernelIdeal.τ Cert.KernelIdeal.sig) → Buf (Elt Ideal) ℓ) (c : Dev Cert.KernelIdeal.nD) :
    (Cert.ReferenceIdeal.Read.val_main_v2 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      : (⟨2, ![262144, 512]⟩ : Shape).Idx → EReal)
      = Cert.KernelIdeal.Whole.segmentSums m c := by
  unfold Cert.ReferenceIdeal.Read.val_main_v2 Cert.ReferenceIdeal.Read.val_main_v1 Cert.ReferenceIdeal.Read.val_main_v0
    Cert.ReferenceIdeal.Read.val_main_cst Cert.KernelIdeal.Whole.segmentSums
  rfl

/-- The reference's result stage, at the kernel program's arguments, is the kernel program's result. -/
theorem reference_is_result
    (m : (ℓ : Loc Cert.KernelIdeal.nD Cert.KernelIdeal.τ Cert.KernelIdeal.sig) → Buf (Elt Ideal) ℓ) (c : Dev Cert.KernelIdeal.nD) :
    (Cert.ReferenceIdeal.Read.val_main_v5 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      : (⟨2, ![262144, 512]⟩ : Shape).Idx → EReal)
      = Cert.KernelIdeal.Whole.result m c := by
  funext i
  rw [Cert.ReferenceIdeal.RefValue.result_apply]
  unfold Cert.KernelIdeal.Whole.result Cert.KernelIdeal.CopyRegion.rowEverywhere
  rw [Cert.KernelIdeal.SumRegion.columnTotals_apply, same_segment_sums m c]

end Cert.Bridge

end
-- ==== Proof.lean ====
/-
  The certificate of a scatter-add followed by a column sum of squares.

  The program takes an array `source` of 262144 rows and 512 columns and a column `indices` of 262144 integers. It
  forms the per-segment sums (row `j` of the segment sums is the sum of the rows of `source` that `indices` sends to
  `j`), totals the squares of the segment sums down each column, and returns the row of 512 totals repeated in every
  row. The kernel program does the scatter-add on the host, the totals in one kernel that accumulates a running row over 32 blocks
  of 8192 rows, and the repetition in a second kernel. The reference does all three on the host, the totals as one sum over all the rows.

  Over the extended reals the two results are equal entry by entry: both are, at row `n` and column `d`, the sum over
  every row of the segment sum at column `d` squared. The kernel adds the 32 block sums in order starting from zero and
  the reference adds all the rows starting from zero; a sum of extended reals may be regrouped and reordered freely, so
  these agree whatever the entries are, finite or not. The precondition is therefore not used.

  The three frames: the two kernel programs' are the generated frame certificates; the reference's is its generated run
  with the result dropped. The idealization rewrote nothing, so there is nothing to preserve.
-/
import proofs.«164212_j35287451304683_1_alg».proof.Defs
import proofs.«164212_j35287451304683_1_alg».proof.Proof.Gen.Kernel
import proofs.«164212_j35287451304683_1_alg».proof.Proof.Gen.Kernel.Skeleton
import proofs.«164212_j35287451304683_1_alg».proof.Proof.Gen.Kernel.Launch
import proofs.«164212_j35287451304683_1_alg».proof.Proof.Gen.Kernel.Points
import proofs.«164212_j35287451304683_1_alg».proof.Proof.Gen.Kernel.Frame
import proofs.«164212_j35287451304683_1_alg».proof.Proof.Gen.KernelIdeal
import proofs.«164212_j35287451304683_1_alg».proof.Proof.Gen.KernelIdeal.Skeleton
import proofs.«164212_j35287451304683_1_alg».proof.Proof.Gen.KernelIdeal.Launch
import proofs.«164212_j35287451304683_1_alg».proof.Proof.Gen.KernelIdeal.Points
import proofs.«164212_j35287451304683_1_alg».proof.Proof.Gen.KernelIdeal.Frame
import proofs.«164212_j35287451304683_1_alg».proof.Proof.Gen.ReferenceIdeal
import proofs.«164212_j35287451304683_1_alg».proof.Proof.Gen.ReferenceIdeal.Run
import proofs.«164212_j35287451304683_1_alg».proof.Proof.Gen.ReferenceIdeal.Read
import proofs.«164212_j35287451304683_1_alg».proof.Proof.Gen.Pre_finite_inputs
import proofs.«164212_j35287451304683_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the two arguments, both programs end with the result array holding, at row `n`
    and column `d`, the sum over every row of the segment sum at column `d` squared. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2]
  exact Cert.Bridge.reference_is_result m c

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
